-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2500x512 : Shape := ⟨3, ![32, 2500, 512]⟩
abbrev S512x512 : Shape := ⟨2, ![512, 512]⟩
abbrev S512 : Shape := ⟨1, ![512]⟩
abbrev S50x512 : Shape := ⟨2, ![50, 512]⟩
abbrev S_ : Shape := ⟨0, ![]⟩

class Facts : Prop where
  bcast_S_S32x2500x512 : S_.BroadcastsInDim S32x2500x512 (![] : Fin 0 → Fin S32x2500x512.rank)
  reducesTo_S32x2500x512_S_d0_1_2 : S32x2500x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50x512 : S_.BroadcastsInDim S50x512 (![] : Fin 0 → Fin S50x512.rank)
  reducesTo_S50x512_S_d0_1 : S50x512.ReducesTo [0, 1] S_

variable [Facts]

def fn_part1 {F : FTy → Type} [FloatOps F] (main_v13 : IVec S_ 1) (main_v16 : IVec S50x512 1) : IVec S_ 1 :=
  let main_c_5 : IVec S_ 1 := constantI S_ 1 1#1
  let main_v17 : IVec S_ 1 := (fun x v => Host.reduce IntOp.andi x v reducesTo_S50x512_S_d0_1 h_S_) main_v16 main_c_5
  let main_v18 : IVec S_ 1 := andi main_v13 main_v17
  main_v18

def fn {F : FTy → Type} [FloatOps F] (main_arg0 : FVec F S32x2500x512 .f32) (main_arg1 : FVec F S512x512 .f32) (main_arg2 : FVec F S512 .f32) (main_arg3 : FVec F S50x512 .f32) : IVec S_ 1 :=
  let main_v0 : FVec F S32x2500x512 .f32 := Host.absf main_arg0
  let main_cst : FVec F S_ .f32 := constant S_ .f32 0x7F800000#32
  let main_v1 : FVec F S32x2500x512 .f32 := broadcastInDim S32x2500x512 ![] bcast_S_S32x2500x512 main_cst
  let main_v2 : IVec S32x2500x512 1 := cmpf .olt main_v0 main_v1
  let main_c : IVec S_ 1 := constantI S_ 1 1#1
  let main_v3 : IVec S_ 1 := (fun x v => Host.reduce IntOp.andi x v reducesTo_S32x2500x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S50x512 .f32 := Host.absf main_arg3
  let main_cst_4 : FVec F S_ .f32 := constant S_ .f32 0x7F800000#32
  let main_v15 : FVec F S50x512 .f32 := broadcastInDim S50x512 ![] bcast_S_S50x512 main_cst_4
  let main_v16 : IVec S50x512 1 := cmpf .olt main_v14 main_v15
  fn_part1 (F := F) main_v13 main_v16
-- ==== Kernel.lean ====
abbrev S32x2500x512 : Shape := ⟨3, ![32, 2500, 512]⟩
abbrev S512x512 : Shape := ⟨2, ![512, 512]⟩
abbrev S512 : Shape := ⟨1, ![512]⟩
abbrev S50x512 : Shape := ⟨2, ![50, 512]⟩
abbrev S32x100x25x512 : Shape := ⟨4, ![32, 100, 25, 512]⟩
abbrev S32x100x50x512 : Shape := ⟨4, ![32, 100, 50, 512]⟩
abbrev S1x50x25x512 : Shape := ⟨4, ![1, 50, 25, 512]⟩
abbrev S1x50x50x512 : Shape := ⟨4, ![1, 50, 50, 512]⟩
abbrev S50x25x512 : Shape := ⟨3, ![50, 25, 512]⟩
abbrev S1250x512 : Shape := ⟨2, ![1250, 512]⟩
abbrev S1x512 : Shape := ⟨2, ![1, 512]⟩
abbrev S512x50 : Shape := ⟨2, ![512, 50]⟩
abbrev S1250x50 : Shape := ⟨2, ![1250, 50]⟩
abbrev S50x25x50 : Shape := ⟨3, ![50, 25, 50]⟩
abbrev S50x50 : Shape := ⟨2, ![50, 50]⟩
abbrev S50x1x50 : Shape := ⟨3, ![50, 1, 50]⟩
abbrev S50x25 : Shape := ⟨2, ![50, 25]⟩
abbrev S50x25x1 : Shape := ⟨3, ![50, 25, 1]⟩
abbrev S50x50x512 : Shape := ⟨3, ![50, 50, 512]⟩

abbrev nBuf : Space → Nat
  | .hbm => 6
  | .vmem => 7
  | .smem => 0
  | _ => 0

abbrev bufTy : (tb : Table) → Fin (tcTables nBuf tb) → BufTy
  | .hbm, ⟨0, _⟩ => ⟨S32x2500x512, .f32⟩
  | .hbm, ⟨1, _⟩ => ⟨S512x512, .f32⟩
  | .hbm, ⟨2, _⟩ => ⟨S512, .f32⟩
  | .hbm, ⟨3, _⟩ => ⟨S50x512, .f32⟩
  | .hbm, ⟨4, _⟩ => ⟨S32x100x25x512, .f32⟩
  | .hbm, ⟨5, _⟩ => ⟨S32x100x50x512, .f32⟩
  | .local _ .vmem, ⟨0, _⟩ => ⟨S1x50x25x512, .f32⟩
  | .local _ .vmem, ⟨1, _⟩ => ⟨S1x50x25x512, .f32⟩
  | .local _ .vmem, ⟨2, _⟩ => ⟨S512x512, .f32⟩
  | .local _ .vmem, ⟨3, _⟩ => ⟨S512, .f32⟩
  | .local _ .vmem, ⟨4, _⟩ => ⟨S50x512, .f32⟩
  | .local _ .vmem, ⟨5, _⟩ => ⟨S1x50x50x512, .f32⟩
  | .local _ .vmem, ⟨6, _⟩ => ⟨S1x50x50x512, .f32⟩
  | _, _ => ⟨S32x2500x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x50x25x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S50x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x50x50x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x2500x512_S32x100x25x512 : S32x2500x512.ShapeCasts S32x100x25x512
  inb_S1x50x25x512_S1x50x25x512_0_0_0_0 : ∀ a, (![0, 0, 0, 0] : Fin 4 → Nat) a + S1x50x25x512.size a ≤ S1x50x25x512.size a
  h_S1x50x25x512 : 0 < S1x50x25x512.numel
  shapeCasts_S1x50x25x512_S50x25x512 : S1x50x25x512.ShapeCasts S50x25x512
  bitsLt_bf16_f32 : FTy.bits .bf16 < FTy.bits .f32
  shapeCasts_S50x25x512_S1250x512 : S50x25x512.ShapeCasts S1250x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1250x512 : S1x512.Broadcasts S1250x512
  inb_S50x512_S50x512_0_0 : ∀ a, (![0, 0] : Fin 2 → Nat) a + S50x512.size a ≤ S50x512.size a
  h_S50x512 : 0 < S50x512.numel
  transposes_S50x512_p1_0_S512x50 : S50x512.Transposes [1, 0] S512x50
  shapeCasts_S1250x50_S50x25x50 : S1250x50.ShapeCasts S50x25x50
  reduces_S50x25x50_S50x50 : S50x25x50.Reduces [1] S50x50
  shapeCasts_S50x50_S50x1x50 : S50x50.ShapeCasts S50x1x50
  broadcasts_S50x1x50_S50x25x50 : S50x1x50.Broadcasts S50x25x50
  reduces_S50x25x50_S50x25 : S50x25x50.Reduces [2] S50x25
  shapeCasts_S50x25_S50x25x1 : S50x25.ShapeCasts S50x25x1
  broadcasts_S50x25x1_S50x25x50 : S50x25x1.Broadcasts S50x25x50
  inb_S1x50x50x512_S1x50x50x512_0_0_0_0 : ∀ a, (![0, 0, 0, 0] : Fin 4 → Nat) a + S1x50x50x512.size a ≤ S1x50x50x512.size a
  h_S1x50x50x512 : 0 < S1x50x50x512.numel
  shapeCasts_S1x50x50x512_S50x50x512 : S1x50x50x512.ShapeCasts S50x50x512
  shapeCasts_S50x50x512_S1x50x50x512 : S50x50x512.ShapeCasts S1x50x50x512
  dot_S1250x512_S512x512_S1250x512_1_0_0_1_n_n_wf : DotDims.WF S1250x512 S512x512 S1250x512 [1] [0] [0] [1] [] []
  dot_S1250x512_S512x50_S1250x50_1_0_0_1_n_n_wf : DotDims.WF S1250x512 S512x50 S1250x50 [1] [0] [0] [1] [] []
  dot_S50x25x50_S50x25x512_S50x50x512_1_1_2_2_0_0_wf : DotDims.WF S50x25x50 S50x25x512 S50x50x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50x25x512.size a ≤ S32x100x25x512.size a
  hwx0_0 : ∀ i : grid0.Coords, EltTy.bits .f32 = 32 ∨ (Rect.block (s := S32x100x25x512) S1x50x25x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x512.size a ≤ S50x512.size a
  hwx0_3 : ∀ i : grid0.Coords, EltTy.bits .f32 = 32 ∨ (Rect.block (s := S50x512) S50x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x50x50x512.size a ≤ S32x100x50x512.size a
  hwx0_4 : ∀ i : grid0.Coords, EltTy.bits .f32 = 32 ∨ (Rect.block (s := S32x100x50x512) S1x50x50x512.size (cc0_transform_4 i) (hinb0_4 i)).WholeWords (EltTy.packing .f32)

variable [Facts₀]

def dot_S1250x512_S512x512_S1250x512_1_0_0_1_n_n : DotDims S1250x512 S512x512 S1250x512 where
  lhsContracting := [1]
  rhsContracting := [0]
  lhsNonContracting := [0]
  rhsNonContracting := [1]
  lhsBatch := []
  rhsBatch := []
  wf := dot_S1250x512_S512x512_S1250x512_1_0_0_1_n_n_wf
def dot_S1250x512_S512x50_S1250x50_1_0_0_1_n_n : DotDims S1250x512 S512x50 S1250x50 where
  lhsContracting := [1]
  rhsContracting := [0]
  lhsNonContracting := [0]
  rhsNonContracting := [1]
  lhsBatch := []
  rhsBatch := []
  wf := dot_S1250x512_S512x50_S1250x50_1_0_0_1_n_n_wf
def dot_S50x25x50_S50x25x512_S50x50x512_1_1_2_2_0_0 : DotDims S50x25x50 S50x25x512 S50x50x512 where
  lhsContracting := [1]
  rhsContracting := [1]
  lhsNonContracting := [2]
  rhsNonContracting := [2]
  lhsBatch := [0]
  rhsBatch := [0]
  wf := dot_S50x25x50_S50x25x512_S50x50x512_1_1_2_2_0_0_wf

abbrev win0_0 : Pipeline.Window sig grid0 :=
  Pipeline.Window.ofSpec (Memref.whole main_v0) S1x50x25x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x50x50x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2500x512 : Shape := ⟨3, ![32, 2500, 512]⟩
abbrev S512x512 : Shape := ⟨2, ![512, 512]⟩
abbrev S512 : Shape := ⟨1, ![512]⟩
abbrev S50x512 : Shape := ⟨2, ![50, 512]⟩
abbrev S1x1x512 : Shape := ⟨3, ![1, 1, 512]⟩
abbrev S32x100x25x512 : Shape := ⟨4, ![32, 100, 25, 512]⟩
abbrev S32x100x25x50 : Shape := ⟨4, ![32, 100, 25, 50]⟩
abbrev S_ : Shape := ⟨0, ![]⟩
abbrev S32x100x50 : Shape := ⟨3, ![32, 100, 50]⟩
abbrev S32x100x1x50 : Shape := ⟨4, ![32, 100, 1, 50]⟩
abbrev S32x100x25 : Shape := ⟨3, ![32, 100, 25]⟩
abbrev S32x100x25x1 : Shape := ⟨4, ![32, 100, 25, 1]⟩
abbrev S32x100x50x512 : Shape := ⟨4, ![32, 100, 50, 512]⟩

abbrev nBuf : Space → Nat
  | .hbm => 32
  | .vmem => 0
  | .smem => 0
  | _ => 0

abbrev bufTy : (tb : Table) → Fin (tcTables nBuf tb) → BufTy
  | .hbm, ⟨0, _⟩ => ⟨S32x2500x512, .f32⟩
  | .hbm, ⟨1, _⟩ => ⟨S512x512, .f32⟩
  | .hbm, ⟨2, _⟩ => ⟨S512, .f32⟩
  | .hbm, ⟨3, _⟩ => ⟨S50x512, .f32⟩
  | .hbm, ⟨4, _⟩ => ⟨S32x2500x512, .f32⟩
  | .hbm, ⟨5, _⟩ => ⟨S1x1x512, .f32⟩
  | .hbm, ⟨6, _⟩ => ⟨S32x2500x512, .f32⟩
  | .hbm, ⟨7, _⟩ => ⟨S32x2500x512, .f32⟩
  | .hbm, ⟨8, _⟩ => ⟨S32x2500x512, .f32⟩
  | .hbm, ⟨9, _⟩ => ⟨S32x100x25x512, .f32⟩
  | .hbm, ⟨10, _⟩ => ⟨S32x100x25x50, .f32⟩
  | .hbm, ⟨11, _⟩ => ⟨S_, .f32⟩
  | .hbm, ⟨12, _⟩ => ⟨S32x100x50, .f32⟩
  | .hbm, ⟨13, _⟩ => ⟨S32x100x1x50, .f32⟩
  | .hbm, ⟨14, _⟩ => ⟨S32x100x25x50, .f32⟩
  | .hbm, ⟨15, _⟩ => ⟨S32x100x25x50, .f32⟩
  | .hbm, ⟨16, _⟩ => ⟨S_, .f32⟩
  | .hbm, ⟨17, _⟩ => ⟨S32x100x25, .f32⟩
  | .hbm, ⟨18, _⟩ => ⟨S_, .f32⟩
  | .hbm, ⟨19, _⟩ => ⟨S32x100x25, .f32⟩
  | .hbm, ⟨20, _⟩ => ⟨S32x100x25, .f32⟩
  | .hbm, ⟨21, _⟩ => ⟨S32x100x25x1, .f32⟩
  | .hbm, ⟨22, _⟩ => ⟨S32x100x25x50, .f32⟩
  | .hbm, ⟨23, _⟩ => ⟨S32x100x25x50, .f32⟩
  | .hbm, ⟨24, _⟩ => ⟨S32x100x25x50, .f32⟩
  | .hbm, ⟨25, _⟩ => ⟨S_, .f32⟩
  | .hbm, ⟨26, _⟩ => ⟨S32x100x25, .f32⟩
  | .hbm, ⟨27, _⟩ => ⟨S32x100x25x1, .f32⟩
  | .hbm, ⟨28, _⟩ => ⟨S32x100x25x50, .f32⟩
  | .hbm, ⟨29, _⟩ => ⟨S32x100x25x50, .f32⟩
  | .hbm, ⟨30, _⟩ => ⟨S32x100x25x512, .f32⟩
  | .hbm, ⟨31, _⟩ => ⟨S32x100x50x512, .f32⟩
  | _, _ => ⟨S32x2500x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x2500x512_0_1_2 : S1x1x512.BroadcastsInDim S32x2500x512 (![0, 1, 2] : Fin 3 → Fin S32x2500x512.rank)
  shapeCasts_S32x2500x512_S32x100x25x512 : S32x2500x512.ShapeCasts S32x100x25x512
  reducesTo_S32x100x25x50_S32x100x50_d2 : S32x100x25x50.ReducesTo [2] S32x100x50
  h_S_ : 0 < S_.numel
  bcast_S32x100x50_S32x100x1x50_0_1_3 : S32x100x50.BroadcastsInDim S32x100x1x50 (![0, 1, 3] : Fin 3 → Fin S32x100x1x50.rank)
  bcast_S32x100x1x50_S32x100x25x50_0_1_2_3 : S32x100x1x50.BroadcastsInDim S32x100x25x50 (![0, 1, 2, 3] : Fin 4 → Fin S32x100x25x50.rank)
  reducesTo_S32x100x25x50_S32x100x25_d3 : S32x100x25x50.ReducesTo [3] S32x100x25
  bcast_S_S32x100x25 : S_.BroadcastsInDim S32x100x25 (![] : Fin 0 → Fin S32x100x25.rank)
  bcast_S32x100x25_S32x100x25x1_0_1_2 : S32x100x25.BroadcastsInDim S32x100x25x1 (![0, 1, 2] : Fin 3 → Fin S32x100x25x1.rank)
  bcast_S32x100x25x1_S32x100x25x50_0_1_2_3 : S32x100x25x1.BroadcastsInDim S32x100x25x50 (![0, 1, 2, 3] : Fin 4 → Fin S32x100x25x50.rank)
  dot_S32x2500x512_S512x512_S32x2500x512_2_1_01_0_n_n_wf : DotDims.WF S32x2500x512 S512x512 S32x2500x512 [2] [1] [0, 1] [0] [] []
  dot_S32x100x25x512_S50x512_S32x100x25x50_3_1_012_0_n_n_wf : DotDims.WF S32x100x25x512 S50x512 S32x100x25x50 [3] [1] [0, 1, 2] [0] [] []
  dot_S32x100x25x50_S32x100x25x512_S32x100x50x512_2_2_3_3_01_01_wf : DotDims.WF S32x100x25x50 S32x100x25x512 S32x100x50x512 [2] [2] [3] [3] [0, 1] [0, 1]

variable [Facts₀]

def dot_S32x2500x512_S512x512_S32x2500x512_2_1_01_0_n_n : DotDims S32x2500x512 S512x512 S32x2500x512 where
  lhsContracting := [2]
  rhsContracting := [1]
  lhsNonContracting := [0, 1]
  rhsNonContracting := [0]
  lhsBatch := []
  rhsBatch := []
  wf := dot_S32x2500x512_S512x512_S32x2500x512_2_1_01_0_n_n_wf
def dot_S32x100x25x512_S50x512_S32x100x25x50_3_1_012_0_n_n : DotDims S32x100x25x512 S50x512 S32x100x25x50 where
  lhsContracting := [3]
  rhsContracting := [1]
  lhsNonContracting := [0, 1, 2]
  rhsNonContracting := [0]
  lhsBatch := []
  rhsBatch := []
  wf := dot_S32x100x25x512_S50x512_S32x100x25x50_3_1_012_0_n_n_wf
def dot_S32x100x25x50_S32x100x25x512_S32x100x50x512_2_2_3_3_01_01 : DotDims S32x100x25x50 S32x100x25x512 S32x100x50x512 where
  lhsContracting := [2]
  rhsContracting := [2]
  lhsNonContracting := [3]
  rhsNonContracting := [3]
  lhsBatch := [0, 1]
  rhsBatch := [0, 1]
  wf := dot_S32x100x25x50_S32x100x25x512_S32x100x50x512_2_2_3_3_01_01_wf

class Facts : Prop extends Facts₀ where

variable [Facts]
-- ==== Proof.Attention.lean ====
/-
  The function both programs compute, written once over plain coordinates.

  A sentence is 25 words of 512 numbers. Each word `x` gets 512 hidden units
  `tanh (∑ i, x i * W o i + b o)` and from them one logit per class, `∑ o, hidden o * ctx c o`.
  Within a sentence the logits are shifted twice: first by the maximum over the WORDS of each class column,
  then by the maximum over the CLASSES of each word row; the exponentials of the result are divided by their
  sum over the classes. The output for class `c` is the sum over the words of that weight times the raw word.
  All of it is read on the extended reals, a maximum starting from the float pattern of minus infinity.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The value every maximum starts from: the f32 pattern of minus infinity. -/
abbrev negInf : EReal := Ideal.ofBits .f32 0xFF800000#32

/-- Hidden unit `o` of a word: `tanh (∑ i, x i * W o i + b o)`. -/
def hidden (W : Fin 512 → Fin 512 → EReal) (b : Fin 512 → EReal) (x : Fin 512 → EReal) (o : Fin 512) : EReal :=
  Ideal.tanh ((∑ i : Fin 512, x i * W o i) + b o)

/-- The logit of class `c` for a word: its hidden units against the class's context row. -/
def logit (W : Fin 512 → Fin 512 → EReal) (b : Fin 512 → EReal) (ctx : Fin 50 → Fin 512 → EReal)
    (x : Fin 512 → EReal) (c : Fin 50) : EReal :=
  ∑ o : Fin 512, hidden W b x o * ctx c o

/-- The maximum over the 25 words of class column `c`. -/
def wordMax (L : Fin 25 → Fin 50 → EReal) (c : Fin 50) : EReal :=
  (Finset.univ : Finset (Fin 25)).fold max negInf (fun l => L l c)

/-- The maximum over the 50 classes of word row `l` (taken once more against minus infinity, as both programs do). -/
def classMax (Z : Fin 25 → Fin 50 → EReal) (l : Fin 25) : EReal :=
  max negInf ((Finset.univ : Finset (Fin 50)).fold max negInf (fun c => Z l c))

/-- The logits less their column maxima. -/
def shifted (L : Fin 25 → Fin 50 → EReal) (l : Fin 25) (c : Fin 50) : EReal := L l c - wordMax L c

/-- The exponential of a shifted logit less its row maximum. -/
def expo (Z : Fin 25 → Fin 50 → EReal) (l : Fin 25) (c : Fin 50) : EReal := Ideal.exp (Z l c - classMax Z l)

/-- The weight of word `l` for class `c`: the exponential over the sum of the row's exponentials. -/
def weight (L : Fin 25 → Fin 50 → EReal) (l : Fin 25) (c : Fin 50) : EReal :=
  Ideal.div (expo (shifted L) l c) (∑ c' : Fin 50, expo (shifted L) l c')

/-- The pooled output of one sentence `xs`, for class `c` and feature `d`. -/
def pooled (W : Fin 512 → Fin 512 → EReal) (b : Fin 512 → EReal) (ctx : Fin 50 → Fin 512 → EReal)
    (xs : Fin 25 → Fin 512 → EReal) (c : Fin 50) (d : Fin 512) : EReal :=
  ∑ l : Fin 25, weight (fun l c => logit W b ctx (xs l) c) l c * xs l d

/-- The row of the flat `[2500]` word axis that holds word `l` of sentence `s`: `25 s + l`. -/
abbrev row (s : Fin 100) (l : Fin 25) : Fin 2500 := ⟨s.val * 25 + l.val, by have := s.isLt; have := l.isLt; omega⟩

/-- Word `l` of sentence `s` of batch entry `n`, in the flat `[32, 2500, 512]` input. -/
def word (X : (⟨3, ![32, 2500, 512]⟩ : Shape).Idx → EReal) (n : Fin 32) (s : Fin 100) (l : Fin 25) (i : Fin 512) : EReal :=
  X (ix3 n (row s l) i)

/-- The whole result array as one function of the four argument arrays. -/
def result (X : (⟨3, ![32, 2500, 512]⟩ : Shape).Idx → EReal) (W : (⟨2, ![512, 512]⟩ : Shape).Idx → EReal)
    (b : (⟨1, ![512]⟩ : Shape).Idx → EReal) (ctx : (⟨2, ![50, 512]⟩ : Shape).Idx → EReal)
    (n : Fin 32) (s : Fin 100) (c : Fin 50) (d : Fin 512) : EReal :=
  pooled (fun o i => W (ix2 o i)) (fun o => b (ix1 o)) (fun c o => ctx (ix2 c o)) (word X n s) c d

/-- The same as an array over the `[32, 100, 50, 512]` index. -/
def resultArr (X : (⟨3, ![32, 2500, 512]⟩ : Shape).Idx → EReal) (W : (⟨2, ![512, 512]⟩ : Shape).Idx → EReal)
    (b : (⟨1, ![512]⟩ : Shape).Idx → EReal) (ctx : (⟨2, ![50, 512]⟩ : Shape).Idx → EReal) :
    (⟨4, ![32, 100, 50, 512]⟩ : Shape).Idx → EReal :=
  fun j => result X W b ctx (j 0) (j 1) (j 2) (j 3)

theorem resultArr_ix4 (X : (⟨3, ![32, 2500, 512]⟩ : Shape).Idx → EReal) (W : (⟨2, ![512, 512]⟩ : Shape).Idx → EReal)
    (b : (⟨1, ![512]⟩ : Shape).Idx → EReal) (ctx : (⟨2, ![50, 512]⟩ : Shape).Idx → EReal)
    (n : Fin 32) (s : Fin 100) (c : Fin 50) (d : Fin 512) :
    resultArr X W b ctx (ix4 n s c d) = result X W b ctx n s c d := rfl

end Cert.Attention

end
-- ==== Proof.ReferenceValue.lean ====
/-
  The reference's result, read index by index, is the pooled attention of Attention.lean.

  The reference forms the hidden layer of every one of the 32 x 2500 words at once, regroups the words as
  100 sentences of 25, takes the logits against the context rows, shifts them by the maximum over the words
  (per class) and then by the maximum over the classes (per word), exponentiates, divides by the sum over the
  classes and contracts the weights with the raw words over the 25 words of the sentence. Read at entry
  (n, s, c, d) each stage only ever touches sentence s of batch entry n, whose word l is row 25 s + l of the
  flat word axis; so every stage is the corresponding stage of `Cert.Attention` applied to that sentence.
  The two maxima are folds of `max` from minus infinity over one axis; the sum starts from the pattern of zero.
-/
import proofs.«103625_j41472204210408_2_alg».proof.Proof.Gen.ReferenceIdeal.Read
import proofs.«103625_j41472204210408_2_alg».proof.Proof.Attention
import Idealize.ShloMosaic.PureOps.Reduce

noncomputable section
namespace Cert.ReferenceIdeal.RefValue
open Cert.ReferenceIdeal Cert.ReferenceIdeal.Gen Cert.ReferenceIdeal.Read Idealize.ShloMosaic Idealize.ShloMosaic.ValueIdx Cert.Attention

variable (x0 : (⟨S32x2500x512, .f32⟩ : BufTy).Contents (Elt Ideal)) (x1 : (⟨S512x512, .f32⟩ : BufTy).Contents (Elt Ideal))
  (x2 : (⟨S512, .f32⟩ : BufTy).Contents (Elt Ideal)) (x3 : (⟨S50x512, .f32⟩ : BufTy).Contents (Elt Ideal))

/-- The logits of the reference: the hidden units of word 25 s + l against context row c. -/
theorem logits_apply (n : Fin 32) (s : Fin 100) (l : Fin 25) (c : Fin 50) :
    val_main_v6 (F := Ideal) x0 x1 x2 x3 (ix4 n s l c)
      = logit (fun o i => x1 (ix2 o i)) (fun o => x2 (ix1 o)) (fun c o => x3 (ix2 c o)) (word x0 n s l) c := by
  rw [val_main_v6_apply]
  unfold logit
  refine Finset.sum_congr rfl fun o _ => ?_
  have e1 : lidx_main_v6 (ix4 n s l c) o = ix4 n s l o :=
    funext fun a => Fin.ext (by match a with | ⟨0, _⟩ => rfl | ⟨1, _⟩ => rfl | ⟨2, _⟩ => rfl | ⟨3, _⟩ => rfl)
  have e2 : ridx_main_v6 (ix4 n s l c) o = ix2 c o :=
    funext fun a => Fin.ext (by match a with | ⟨0, _⟩ => rfl | ⟨1, _⟩ => rfl)
  have e3 : idx_main_v5 (ix4 n s l o) = ix3 n (row s l) o := by
    have hn := n.isLt; have hs := s.isLt; have hl := l.isLt; have ho := o.isLt
    funext a; apply Fin.ext
    match a with
    | ⟨0, _⟩ => show (((n.val * 100 + s.val) * 25 + l.val) * 512 + o.val) / 1280000 = n.val; omega
    | ⟨1, _⟩ => show (((n.val * 100 + s.val) * 25 + l.val) * 512 + o.val) / 512 % 2500 = s.val * 25 + l.val; omega
    | ⟨2, _⟩ => show (((n.val * 100 + s.val) * 25 + l.val) * 512 + o.val) % 512 = o.val; omega
  have e4 : ∀ k : Fin 512, lidx_main_v0 (ix3 n (row s l) o) k = ix3 n (row s l) k := fun k =>
    funext fun a => Fin.ext (by match a with | ⟨0, _⟩ => rfl | ⟨1, _⟩ => rfl | ⟨2, _⟩ => rfl)
  have e5 : ∀ k : Fin 512, ridx_main_v0 (ix3 n (row s l) o) k = ix2 o k := fun k =>
    funext fun a => Fin.ext (by match a with | ⟨0, _⟩ => rfl | ⟨1, _⟩ => rfl)
  have e6 : idx_main_v1 (idx_main_v2 (ix3 n (row s l) o)) = ix1 o :=
    funext fun a => Fin.ext (by match a with | ⟨0, _⟩ => rfl)
  rw [e1, e2, val_main_v5_apply, val_main_v4_apply, val_main_v3_apply, val_main_v0_apply, val_main_v2_apply, val_main_v1_apply, e3, e6]
  simp only [e4, e5]
  rfl

/-- The logits of one sentence, as the reference's stage computes them. -/
abbrev refLogits (n : Fin 32) (s : Fin 100) : Fin 25 → Fin 50 → EReal :=
  fun l c => val_main_v6 (F := Ideal) x0 x1 x2 x3 (ix4 n s l c)

theorem wordMax_apply (n : Fin 32) (s : Fin 100) (c : Fin 50) :
    val_main_v7 (F := Ideal) x0 x1 x2 x3 (ix3 n s c) = wordMax (refLogits x0 x1 x2 x3 n s) c := by
  unfold val_main_v7 refLogits
  generalize val_main_v6 (F := Ideal) x0 x1 x2 x3 = L
  refine (Host.reduce_eq_fold_single _ _ _ _ (by decide) _ _).trans ?_
  unfold wordMax
  show Finset.fold max negInf _ _ = _
  congr 1
  funext k
  exact congrArg L (funext fun a => Fin.ext (by match a with | ⟨0, _⟩ => rfl | ⟨1, _⟩ => rfl | ⟨2, _⟩ => rfl | ⟨3, _⟩ => rfl))

theorem shifted_apply (n : Fin 32) (s : Fin 100) (l : Fin 25) (c : Fin 50) :
    val_main_v10 (F := Ideal) x0 x1 x2 x3 (ix4 n s l c) = shifted (refLogits x0 x1 x2 x3 n s) l c := by
  have e : idx_main_v8 (idx_main_v9 (ix4 n s l c)) = ix3 n s c :=
    funext fun a => Fin.ext (by match a with | ⟨0, _⟩ => rfl | ⟨1, _⟩ => rfl | ⟨2, _⟩ => rfl)
  rw [val_main_v10_apply, val_main_v9_apply, val_main_v8_apply, e, wordMax_apply]
  rfl

theorem classMax_apply (n : Fin 32) (s : Fin 100) (l : Fin 25) :
    val_main_v13 (F := Ideal) x0 x1 x2 x3 (ix3 n s l) = classMax (shifted (refLogits x0 x1 x2 x3 n s)) l := by
  have h11 : val_main_v11 (F := Ideal) x0 x1 x2 x3 (ix3 n s l)
      = (Finset.univ : Finset (Fin 50)).fold max negInf (fun c => val_main_v10 (F := Ideal) x0 x1 x2 x3 (ix4 n s l c)) := by
    unfold val_main_v11
    generalize val_main_v10 (F := Ideal) x0 x1 x2 x3 = Z
    refine (Host.reduce_eq_fold_single _ _ _ _ (by decide) _ _).trans ?_
    show Finset.fold max negInf _ _ = _
    congr 1
    funext k
    exact congrArg Z (funext fun a => Fin.ext (by match a with | ⟨0, _⟩ => rfl | ⟨1, _⟩ => rfl | ⟨2, _⟩ => rfl | ⟨3, _⟩ => rfl))
  rw [val_main_v13_apply, val_main_v12_apply, val_main_cst_1_apply, h11]
  simp only [shifted_apply]
  rfl

theorem expo_apply (n : Fin 32) (s : Fin 100) (l : Fin 25) (c : Fin 50) :
    val_main_v17 (F := Ideal) x0 x1 x2 x3 (ix4 n s l c) = expo (shifted (refLogits x0 x1 x2 x3 n s)) l c := by
  have e : idx_main_v14 (idx_main_v15 (ix4 n s l c)) = ix3 n s l :=
    funext fun a => Fin.ext (by match a with | ⟨0, _⟩ => rfl | ⟨1, _⟩ => rfl | ⟨2, _⟩ => rfl)
  rw [val_main_v17_apply, val_main_v16_apply, val_main_v15_apply, val_main_v14_apply, e, classMax_apply, shifted_apply]
  rfl

theorem weight_apply (n : Fin 32) (s : Fin 100) (l : Fin 25) (c : Fin 50) :
    val_main_v21 (F := Ideal) x0 x1 x2 x3 (ix4 n s l c) = weight (refLogits x0 x1 x2 x3 n s) l c := by
  have e : idx_main_v19 (idx_main_v20 (ix4 n s l c)) = ix3 n s l :=
    funext fun a => Fin.ext (by match a with | ⟨0, _⟩ => rfl | ⟨1, _⟩ => rfl | ⟨2, _⟩ => rfl)
  have e18 : ∀ k : Fin 50, idx_main_v18 (ix3 n s l) k = ix4 n s l k := fun k =>
    funext fun a => Fin.ext (by match a with | ⟨0, _⟩ => rfl | ⟨1, _⟩ => rfl | ⟨2, _⟩ => rfl | ⟨3, _⟩ => rfl)
  rw [val_main_v21_apply, val_main_v20_apply, val_main_v19_apply, e, val_main_v18_apply, val_main_cst_2_apply, expo_apply]
  simp only [e18, expo_apply]
  unfold weight
  show Ideal.div _ (Ideal.ofBits .f32 0x00000000#32 + _) = _
  rw [Ideal.ofBits_zero_f32, zero_add]

/-- The reference's result, index by index, is the pooled attention of the sentence's words. -/
theorem result_apply (n : Fin 32) (s : Fin 100) (c : Fin 50) (d : Fin 512) :
    val_main_v23 (F := Ideal) x0 x1 x2 x3 (ix4 n s c d) = result x0 x1 x2 x3 n s c d := by
  have el : ∀ k : Fin 25, lidx_main_v23 (ix4 n s c d) k = ix4 n s k c := fun k =>
    funext fun a => Fin.ext (by match a with | ⟨0, _⟩ => rfl | ⟨1, _⟩ => rfl | ⟨2, _⟩ => rfl | ⟨3, _⟩ => rfl)
  have er : ∀ k : Fin 25, idx_main_v22 (ridx_main_v23 (ix4 n s c d) k) = ix3 n (row s k) d := fun k => by
    have hn := n.isLt; have hs := s.isLt; have hk := k.isLt; have hd := d.isLt
    funext a; apply Fin.ext
    match a with
    | ⟨0, _⟩ => show (((n.val * 100 + s.val) * 25 + k.val) * 512 + d.val) / 1280000 = n.val; omega
    | ⟨1, _⟩ => show (((n.val * 100 + s.val) * 25 + k.val) * 512 + d.val) / 512 % 2500 = s.val * 25 + k.val; omega
    | ⟨2, _⟩ => show (((n.val * 100 + s.val) * 25 + k.val) * 512 + d.val) % 512 = d.val; omega
  rw [val_main_v23_apply]
  unfold result pooled
  refine Finset.sum_congr rfl fun k _ => ?_
  rw [el, val_main_v22_apply, er, weight_apply]
  have hL : refLogits x0 x1 x2 x3 n s = fun l c => logit (fun o i => x1 (ix2 o i)) (fun o => x2 (ix1 o)) (fun c o => x3 (ix2 c o)) (word x0 n s l) c :=
    funext fun l => funext fun c => logits_apply x0 x1 x2 x3 n s l c
  rw [hL]
  rfl

theorem result_eq : val_main_v23 (F := Ideal) x0 x1 x2 x3 = resultArr x0 x1 x2 x3 := by
  funext j
  obtain ⟨n, s, c, d, rfl⟩ : ∃ (n : Fin 32) (s : Fin 100) (c : Fin 50) (d : Fin 512), j = ix4 n s c d := ⟨j 0, j 1, j 2, j 3, eq_ix4 j⟩
  rw [result_apply, resultArr_ix4]

end Cert.ReferenceIdeal.RefValue
end
-- ==== Proof.BodyValue.lean ====
/-
  What the kernel body computes from its four blocks, entry by entry.

  The body reads a block of 50 sentences of 25 words (one batch entry, half of its sentences), the whole weight
  matrix, the bias and the context rows. It flattens the block to 1250 rows, multiplies by the transposed
  weights, adds the bias and takes tanh; multiplies by the transposed context rows; regroups the 1250 rows of
  logits as 50 sentences of 25; subtracts the maximum over the words, then the maximum over the classes,
  exponentiates, divides by the sum over the classes; and contracts, sentence by sentence, over the 25 words
  with the block itself. The roundings to bf16 on the way into each product are the identity on the extended reals,
  a product into a zero accumulator is the plain sum over the contracted index, and the regroupings move no entry.
  So entry (s, c, d) of the result is `Cert.Attention.pooled` of sentence s of the block.
-/
import proofs.«103625_j41472204210408_2_alg».proof.Proof.Gen.KernelIdeal.Skeleton
import proofs.«103625_j41472204210408_2_alg».proof.Proof.Attention
import Idealize.ShloMosaic.Lib.Pipeline.Value
import Idealize.ShloMosaic.Lib.ValueLayout
import Idealize.ShloMosaic.PureOps.Ideal.Laws

noncomputable section
namespace Cert.KernelIdeal.Body
open Cert.KernelIdeal Cert.KernelIdeal.Gen Idealize.ShloMosaic Idealize.ShloMosaic.ValueIdx Cert.Attention

/-- The block's words, sentence by sentence. -/
def wordsV (P0 : Vec Ideal S1x50x25x512 .f32) : FVec Ideal S50x25x512 .bf16 :=
  truncf .bf16 (shapeCast S50x25x512 P0 shapeCasts_S1x50x25x512_S50x25x512) bitsLt_bf16_f32

/-- The same words as 1250 rows. -/
def flatV (X : FVec Ideal S50x25x512 .bf16) : FVec Ideal S1250x512 .bf16 :=
  shapeCast S1250x512 X shapeCasts_S50x25x512_S1250x512

/-- The hidden layer of the 1250 rows. -/
def hiddenV (Xf : FVec Ideal S1250x512 .bf16) (P1 : Vec Ideal S512x512 .f32) (P2 : Vec Ideal S512 .f32) : FVec Ideal S1250x512 .f32 :=
  tanh (addf (matmul dot_S1250x512_S512x512_S1250x512_1_0_0_1_n_n none Xf
      (transpose S512x512 [1, 0] (truncf .bf16 P1 bitsLt_bf16_f32) transposes_S512x512_p1_0_S512x512) (constant S1250x512 .f32 0x00000000#32))
    (broadcastTo S1250x512 (shapeCast S1x512 P2 shapeCasts_S512_S1x512) broadcasts_S1x512_S1250x512))

/-- The logits, regrouped by sentence. -/
def logitsV (H : FVec Ideal S1250x512 .f32) (P3 : Vec Ideal S50x512 .f32) : FVec Ideal S50x25x50 .f32 :=
  shapeCast S50x25x50 (matmul dot_S1250x512_S512x50_S1250x50_1_0_0_1_n_n none (truncf .bf16 H bitsLt_bf16_f32)
      (transpose S512x50 [1, 0] (truncf .bf16 P3 bitsLt_bf16_f32) transposes_S50x512_p1_0_S512x50) (constant S1250x50 .f32 0x00000000#32))
    shapeCasts_S1250x50_S50x25x50

/-- The logits less the maximum over the words. -/
def shiftedV (L : FVec Ideal S50x25x50 .f32) : FVec Ideal S50x25x50 .f32 :=
  subf L (broadcastTo S50x25x50 (shapeCast S50x1x50
    (multiReduction .maximumf [1] S50x50 L 0xFF800000#32 reduces_S50x25x50_S50x50 (.inl rfl) rfl) shapeCasts_S50x50_S50x1x50)
    broadcasts_S50x1x50_S50x25x50)

/-- The exponentials of the shifted logits less the maximum over the classes. -/
def expoV (Z : FVec Ideal S50x25x50 .f32) : FVec Ideal S50x25x50 .f32 :=
  exp (subf Z (broadcastTo S50x25x50 (shapeCast S50x25x1
    (maximumf (broadcast S50x25 (Scalar.ofBits .f32 0xFF800000#32))
      (multiReduction .maximumf [2] S50x25 Z 0xFF800000#32 reduces_S50x25x50_S50x25 (.inl rfl) rfl)) shapeCasts_S50x25_S50x25x1)
    broadcasts_S50x25x1_S50x25x50))

/-- The exponentials over their sum over the classes. -/
def weightV (E : FVec Ideal S50x25x50 .f32) : FVec Ideal S50x25x50 .f32 :=
  divf E (broadcastTo S50x25x50 (shapeCast S50x25x1
    (multiReduction .add [2] S50x25 E 0x00000000#32 reduces_S50x25x50_S50x25 (.inl rfl) rfl) shapeCasts_S50x25_S50x25x1)
    broadcasts_S50x25x1_S50x25x50)

/-- The weights contracted with the words over the 25 words of each sentence. -/
def poolV (A : FVec Ideal S50x25x50 .f32) (X : FVec Ideal S50x25x512 .bf16) : FVec Ideal S50x50x512 .f32 :=
  matmul dot_S50x25x50_S50x25x512_S50x50x512_1_1_2_2_0_0 none (truncf .bf16 A bitsLt_bf16_f32) X (constant S50x50x512 .f32 0x00000000#32)

/-- The body's arithmetic is these stages, one after the other. -/
theorem pay_eq (P0 : Vec Ideal S1x50x25x512 .f32) (P1 : Vec Ideal S512x512 .f32) (P2 : Vec Ideal S512 .f32) (P3 : Vec Ideal S50x512 .f32) :
    k0_pay2 (F := Ideal) P0 P1 P2 P3
      = poolV (weightV (expoV (shiftedV (logitsV (hiddenV (flatV (wordsV P0)) P1 P2) P3)))) (wordsV P0) := rfl

/-- Row `25 s + l` of the 1250 flattened rows of a block. -/
abbrev rowK (s : Fin 50) (l : Fin 25) : Fin 1250 := ⟨s.val * 25 + l.val, by have := s.isLt; have := l.isLt; omega⟩

theorem wordsV_apply (P0 : Vec Ideal S1x50x25x512 .f32) (s : Fin 50) (l : Fin 25) (i : Fin 512) :
    wordsV P0 (ix3 s l i) = P0 (ix4 (0 : Fin 1) s l i) :=
  shapeCast_1abc_abc_apply P0 shapeCasts_S1x50x25x512_S50x25x512 s l i

theorem flatV_apply (X : FVec Ideal S50x25x512 .bf16) (s : Fin 50) (l : Fin 25) (i : Fin 512) :
    flatV X (ix2 (rowK s l) i) = X (ix3 s l i) :=
  shapeCast_apply X shapeCasts_S50x25x512_S1250x512 (ix2 (rowK s l) i) (ix3 s l i) (by
    rw [Shape.rowMajor_val_three, Shape.rowMajor_val_two]; rfl)

abbrev dotA := dot_S1250x512_S512x512_S1250x512_1_0_0_1_n_n
abbrev dotB := dot_S1250x512_S512x50_S1250x50_1_0_0_1_n_n
abbrev dotC := dot_S50x25x50_S50x25x512_S50x50x512_1_1_2_2_0_0

/-- The first product at (r, o): row r of the left operand against column o of the right one. -/
theorem dotA_apply (L : FVec Ideal S1250x512 .bf16) (R : FVec Ideal S512x512 .bf16) (r : Fin 1250) (o : Fin 512) :
    matmul dotA none L R (constant S1250x512 .f32 0x00000000#32) (ix2 r o) = ∑ k : Fin 512, L (ix2 r k) * R (ix2 k o) := by
  simp only [matmul]
  rw [Ideal.matmul_constant_zero_apply, ← Equiv.sum_comp (contrEquiv1 dotA 512 rfl rfl).symm]
  refine Finset.sum_congr rfl fun k _ => ?_
  have hk := contrEquiv1_symm_val dotA 512 rfl rfl k
  have el : dotA.lhsIdx (ix2 r o) ((contrEquiv1 dotA 512 rfl rfl).symm k) = ix2 r k := funext fun a => Fin.ext (by
    match a with
    | ⟨0, _⟩ =>
      show (dotA.lhsIdx (ix2 r o) _ 0).val = r.val
      unfold DotDims.lhsIdx
      rw [dif_neg (show ¬(0 : Fin S1250x512.rank) ∈ dotA.lhsBatch by decide), dif_pos (show (0 : Fin S1250x512.rank) ∈ dotA.lhsNonContracting by decide)]
      rfl
    | ⟨1, _⟩ => exact (dotA.lhsIdx_val_of_single rfl _ _).trans hk)
  have er : dotA.rhsIdx (ix2 r o) ((contrEquiv1 dotA 512 rfl rfl).symm k) = ix2 k o := funext fun a => Fin.ext (by
    match a with
    | ⟨0, _⟩ => exact (dotA.rhsIdx_val_of_single rfl _ _).trans hk
    | ⟨1, _⟩ =>
      show (dotA.rhsIdx (ix2 r o) _ 1).val = o.val
      unfold DotDims.rhsIdx
      rw [dif_neg (show ¬(1 : Fin S512x512.rank) ∈ dotA.rhsBatch by decide), dif_pos (show (1 : Fin S512x512.rank) ∈ dotA.rhsNonContracting by decide)]
      rfl)
  rw [el, er]

/-- The second product at (r, c). -/
theorem dotB_apply (L : FVec Ideal S1250x512 .bf16) (R : FVec Ideal S512x50 .bf16) (r : Fin 1250) (c : Fin 50) :
    matmul dotB none L R (constant S1250x50 .f32 0x00000000#32) (ix2 r c) = ∑ k : Fin 512, L (ix2 r k) * R (ix2 k c) := by
  simp only [matmul]
  rw [Ideal.matmul_constant_zero_apply, ← Equiv.sum_comp (contrEquiv1 dotB 512 rfl rfl).symm]
  refine Finset.sum_congr rfl fun k _ => ?_
  have hk := contrEquiv1_symm_val dotB 512 rfl rfl k
  have el : dotB.lhsIdx (ix2 r c) ((contrEquiv1 dotB 512 rfl rfl).symm k) = ix2 r k := funext fun a => Fin.ext (by
    match a with
    | ⟨0, _⟩ =>
      show (dotB.lhsIdx (ix2 r c) _ 0).val = r.val
      unfold DotDims.lhsIdx
      rw [dif_neg (show ¬(0 : Fin S1250x512.rank) ∈ dotB.lhsBatch by decide), dif_pos (show (0 : Fin S1250x512.rank) ∈ dotB.lhsNonContracting by decide)]
      rfl
    | ⟨1, _⟩ => exact (dotB.lhsIdx_val_of_single rfl _ _).trans hk)
  have er : dotB.rhsIdx (ix2 r c) ((contrEquiv1 dotB 512 rfl rfl).symm k) = ix2 k c := funext fun a => Fin.ext (by
    match a with
    | ⟨0, _⟩ => exact (dotB.rhsIdx_val_of_single rfl _ _).trans hk
    | ⟨1, _⟩ =>
      show (dotB.rhsIdx (ix2 r c) _ 1).val = c.val
      unfold DotDims.rhsIdx
      rw [dif_neg (show ¬(1 : Fin S512x50.rank) ∈ dotB.rhsBatch by decide), dif_pos (show (1 : Fin S512x50.rank) ∈ dotB.rhsNonContracting by decide)]
      rfl)
  rw [el, er]

/-- The third product, one per sentence s, at (s, c, d): the sum over the words. -/
theorem dotC_apply (L : FVec Ideal S50x25x50 .bf16) (R : FVec Ideal S50x25x512 .bf16) (s : Fin 50) (c : Fin 50) (d : Fin 512) :
    matmul dotC none L R (constant S50x50x512 .f32 0x00000000#32) (ix3 s c d) = ∑ k : Fin 25, L (ix3 s k c) * R (ix3 s k d) := by
  simp only [matmul]
  rw [Ideal.matmul_constant_zero_apply, ← Equiv.sum_comp (contrEquiv1 dotC 25 rfl rfl).symm]
  refine Finset.sum_congr rfl fun k _ => ?_
  have hk := contrEquiv1_symm_val dotC 25 rfl rfl k
  have el : dotC.lhsIdx (ix3 s c d) ((contrEquiv1 dotC 25 rfl rfl).symm k) = ix3 s k c := funext fun a => Fin.ext (by
    match a with
    | ⟨0, _⟩ =>
      show (dotC.lhsIdx (ix3 s c d) _ 0).val = s.val
      unfold DotDims.lhsIdx
      rw [dif_pos (show (0 : Fin S50x25x50.rank) ∈ dotC.lhsBatch by decide)]
      rfl
    | ⟨1, _⟩ => exact (dotC.lhsIdx_val_of_single rfl _ _).trans hk
    | ⟨2, _⟩ =>
      show (dotC.lhsIdx (ix3 s c d) _ 2).val = c.val
      unfold DotDims.lhsIdx
      rw [dif_neg (show ¬(2 : Fin S50x25x50.rank) ∈ dotC.lhsBatch by decide), dif_pos (show (2 : Fin S50x25x50.rank) ∈ dotC.lhsNonContracting by decide)]
      rfl)
  have er : dotC.rhsIdx (ix3 s c d) ((contrEquiv1 dotC 25 rfl rfl).symm k) = ix3 s k d := funext fun a => Fin.ext (by
    match a with
    | ⟨0, _⟩ =>
      show (dotC.rhsIdx (ix3 s c d) _ 0).val = s.val
      unfold DotDims.rhsIdx
      rw [dif_pos (show (0 : Fin S50x25x512.rank) ∈ dotC.rhsBatch by decide)]
      rfl
    | ⟨1, _⟩ => exact (dotC.rhsIdx_val_of_single rfl _ _).trans hk
    | ⟨2, _⟩ =>
      show (dotC.rhsIdx (ix3 s c d) _ 2).val = d.val
      unfold DotDims.rhsIdx
      rw [dif_neg (show ¬(2 : Fin S50x25x512.rank) ∈ dotC.rhsBatch by decide), dif_pos (show (2 : Fin S50x25x512.rank) ∈ dotC.rhsNonContracting by decide)]
      rfl)
  rw [el, er]

/-- A `[50, 50]` table of per-class values, given a unit word axis and repeated over the 25 words, read at (s, l, c). -/
theorem overWords_apply (M : FVec Ideal S50x50 .f32) (s : Fin 50) (l : Fin 25) (c : Fin 50) :
    broadcastTo S50x25x50 (shapeCast S50x1x50 M shapeCasts_S50x50_S50x1x50) broadcasts_S50x1x50_S50x25x50 (ix3 s l c) = M (ix2 s c) := by
  refine (broadcastTo_apply _ broadcasts_S50x1x50_S50x25x50 (ix3 s l c) (ix3 s (0 : Fin 1) c) (fun a => ?_)).trans ?_
  · match a with
    | ⟨0, _⟩ => show s.val = if (50 : Nat) = 1 then 0 else s.val; rw [if_neg (by decide)]
    | ⟨1, _⟩ => show 0 = if (1 : Nat) = 1 then 0 else l.val; rw [if_pos rfl]
    | ⟨2, _⟩ => show c.val = if (50 : Nat) = 1 then 0 else c.val; rw [if_neg (by decide)]
  · exact shapeCast_apply M shapeCasts_S50x50_S50x1x50 (ix3 s (0 : Fin 1) c) (ix2 s c) (by
      rw [Shape.rowMajor_val_two, Shape.rowMajor_val_three]; show s.val * 50 + c.val = (s.val * 1 + 0) * 50 + c.val; omega)

/-- A `[50, 25]` table of per-word values, given a unit class axis and repeated over the 50 classes, read at (s, l, c). -/
theorem overClasses_apply (M : FVec Ideal S50x25 .f32) (s : Fin 50) (l : Fin 25) (c : Fin 50) :
    broadcastTo S50x25x50 (shapeCast S50x25x1 M shapeCasts_S50x25_S50x25x1) broadcasts_S50x25x1_S50x25x50 (ix3 s l c) = M (ix2 s l) := by
  refine (broadcastTo_apply _ broadcasts_S50x25x1_S50x25x50 (ix3 s l c) (ix3 s l (0 : Fin 1)) (fun a => ?_)).trans ?_
  · match a with
    | ⟨0, _⟩ => show s.val = if (50 : Nat) = 1 then 0 else s.val; rw [if_neg (by decide)]
    | ⟨1, _⟩ => show l.val = if (25 : Nat) = 1 then 0 else l.val; rw [if_neg (by decide)]
    | ⟨2, _⟩ => show 0 = if (1 : Nat) = 1 then 0 else c.val; rw [if_pos rfl]
  · exact shapeCast_apply M shapeCasts_S50x25_S50x25x1 (ix3 s l (0 : Fin 1)) (ix2 s l) (by
      rw [Shape.rowMajor_val_two, Shape.rowMajor_val_three]; show s.val * 25 + l.val = (s.val * 25 + l.val) * 1 + 0; omega)

/-- The maximum over the word axis, at (s, c). -/
theorem maxWords_apply (L : FVec Ideal S50x25x50 .f32) (s : Fin 50) (c : Fin 50) :
    multiReduction .maximumf [1] S50x50 L 0xFF800000#32 reduces_S50x25x50_S50x50 (.inl rfl) rfl (ix2 s c)
      = wordMax (fun l c => L (ix3 s l c)) c := by
  refine (Ideal.multiReduction_maximumf_single L 0xFF800000#32 reduces_S50x25x50_S50x50 (.inl rfl) rfl (ix2 s c)).trans ?_
  unfold wordMax
  show Finset.fold max negInf _ _ = _
  congr 1
  funext k
  exact congrArg L (funext fun a => Fin.ext (by match a with | ⟨0, _⟩ => rfl | ⟨1, _⟩ => rfl | ⟨2, _⟩ => rfl))

/-- The maximum over the class axis, at (s, l). -/
theorem maxClasses_apply (Z : FVec Ideal S50x25x50 .f32) (s : Fin 50) (l : Fin 25) :
    multiReduction .maximumf [2] S50x25 Z 0xFF800000#32 reduces_S50x25x50_S50x25 (.inl rfl) rfl (ix2 s l)
      = (Finset.univ : Finset (Fin 50)).fold max negInf (fun c => Z (ix3 s l c)) := by
  refine (Ideal.multiReduction_maximumf_single Z 0xFF800000#32 reduces_S50x25x50_S50x25 (.inl rfl) rfl (ix2 s l)).trans ?_
  show Finset.fold max negInf _ _ = _
  congr 1
  funext k
  exact congrArg Z (funext fun a => Fin.ext (by match a with | ⟨0, _⟩ => rfl | ⟨1, _⟩ => rfl | ⟨2, _⟩ => rfl))

/-- The sum over the class axis, at (s, l). -/
theorem sumClasses_apply (E : FVec Ideal S50x25x50 .f32) (s : Fin 50) (l : Fin 25) :
    multiReduction .add [2] S50x25 E 0x00000000#32 reduces_S50x25x50_S50x25 (.inl rfl) rfl (ix2 s l)
      = ∑ c : Fin 50, E (ix3 s l c) := by
  refine (Ideal.multiReduction_add_single E 0x00000000#32 reduces_S50x25x50_S50x25 (.inl rfl) rfl (ix2 s l)).trans ?_
  refine Finset.sum_congr rfl fun k _ => ?_
  exact congrArg E (funext fun a => Fin.ext (by match a with | ⟨0, _⟩ => rfl | ⟨1, _⟩ => rfl | ⟨2, _⟩ => rfl))

theorem shiftedV_apply (L : FVec Ideal S50x25x50 .f32) (s : Fin 50) (l : Fin 25) (c : Fin 50) :
    shiftedV L (ix3 s l c) = shifted (fun l c => L (ix3 s l c)) l c := by
  unfold shiftedV shifted
  show L (ix3 s l c) - _ = _
  rw [overWords_apply, maxWords_apply]

theorem expoV_apply (Z : FVec Ideal S50x25x50 .f32) (s : Fin 50) (l : Fin 25) (c : Fin 50) :
    expoV Z (ix3 s l c) = expo (fun l c => Z (ix3 s l c)) l c := by
  unfold expoV expo classMax
  show Ideal.exp (Z (ix3 s l c) - _) = _
  rw [overClasses_apply]
  show Ideal.exp (Z (ix3 s l c) - max negInf _) = _
  rw [maxClasses_apply]

theorem weightV_apply (E : FVec Ideal S50x25x50 .f32) (s : Fin 50) (l : Fin 25) (c : Fin 50) :
    weightV E (ix3 s l c) = Ideal.div (E (ix3 s l c)) (∑ c' : Fin 50, E (ix3 s l c')) := by
  unfold weightV
  show Ideal.div (E (ix3 s l c)) _ = _
  rw [overClasses_apply, sumClasses_apply]

/-- The three softmax stages together are the weight of Attention.lean on the sentence's logits. -/
theorem attnV_apply (L : FVec Ideal S50x25x50 .f32) (s : Fin 50) (l : Fin 25) (c : Fin 50) :
    weightV (expoV (shiftedV L)) (ix3 s l c) = weight (fun l c => L (ix3 s l c)) l c := by
  have hZ : (fun l c => shiftedV L (ix3 s l c)) = shifted (fun l c => L (ix3 s l c)) :=
    funext fun l => funext fun c => shiftedV_apply L s l c
  rw [weightV_apply]
  simp only [expoV_apply]
  rw [hZ]
  rfl

theorem hiddenV_apply (Xf : FVec Ideal S1250x512 .bf16) (P1 : Vec Ideal S512x512 .f32) (P2 : Vec Ideal S512 .f32) (r : Fin 1250) (o : Fin 512) :
    hiddenV Xf P1 P2 (ix2 r o) = Attention.hidden (fun o i => P1 (ix2 o i)) (fun o => P2 (ix1 o)) (fun i => Xf (ix2 r i)) o := by
  have hm : matmul dotA none Xf (transpose S512x512 [1, 0] (truncf .bf16 P1 bitsLt_bf16_f32) transposes_S512x512_p1_0_S512x512)
      (constant S1250x512 .f32 0x00000000#32) (ix2 r o) = ∑ i : Fin 512, Xf (ix2 r i) * P1 (ix2 o i) := by
    rw [dotA_apply]
    refine Finset.sum_congr rfl fun k _ => ?_
    have ht : transpose S512x512 [1, 0] (truncf .bf16 P1 bitsLt_bf16_f32 : FVec Ideal S512x512 .bf16) transposes_S512x512_p1_0_S512x512 (ix2 k o) = P1 (ix2 o k) :=
      transpose_ix2_apply _ transposes_S512x512_p1_0_S512x512 k o
    exact congrArg (Xf (ix2 r k) * ·) ht
  have hb : broadcastTo S1250x512 (shapeCast S1x512 P2 shapeCasts_S512_S1x512) broadcasts_S1x512_S1250x512 (ix2 r o) = P2 (ix1 o) :=
    (broadcastTo_1b_ab_apply _ broadcasts_S1x512_S1250x512 r o).trans (shapeCast_a_1a_apply P2 shapeCasts_S512_S1x512 0 o)
  unfold hiddenV Attention.hidden
  show Ideal.tanh (_ + _) = Ideal.tanh (_ + _)
  rw [hm, hb]

theorem logitsV_apply (H : FVec Ideal S1250x512 .f32) (P3 : Vec Ideal S50x512 .f32) (s : Fin 50) (l : Fin 25) (c : Fin 50) :
    logitsV H P3 (ix3 s l c) = ∑ o : Fin 512, H (ix2 (rowK s l) o) * P3 (ix2 c o) := by
  unfold logitsV
  refine (shapeCast_apply _ shapeCasts_S1250x50_S50x25x50 (ix3 s l c) (ix2 (rowK s l) c) (by
    rw [Shape.rowMajor_val_three, Shape.rowMajor_val_two]; rfl)).trans ?_
  rw [dotB_apply]
  refine Finset.sum_congr rfl fun o _ => ?_
  have ht : transpose S512x50 [1, 0] (truncf .bf16 P3 bitsLt_bf16_f32 : FVec Ideal S50x512 .bf16) transposes_S50x512_p1_0_S512x50 (ix2 o c) = P3 (ix2 c o) :=
    transpose_ix2_apply _ transposes_S50x512_p1_0_S512x50 o c
  exact congrArg (H (ix2 (rowK s l) o) * ·) ht

/-- THE BODY'S VALUE: entry (s, c, d) of what the body computes from its four blocks is the pooled attention of
    sentence s of the word block. -/
theorem payload_apply (P0 : Vec Ideal S1x50x25x512 .f32) (P1 : Vec Ideal S512x512 .f32) (P2 : Vec Ideal S512 .f32) (P3 : Vec Ideal S50x512 .f32)
    (s : Fin 50) (c : Fin 50) (d : Fin 512) :
    k0_pay2 (F := Ideal) P0 P1 P2 P3 (ix3 s c d)
      = pooled (fun o i => P1 (ix2 o i)) (fun o => P2 (ix1 o)) (fun c o => P3 (ix2 c o)) (fun l i => P0 (ix4 (0 : Fin 1) s l i)) c d := by
  rw [pay_eq]
  unfold poolV pooled
  rw [dotC_apply]
  refine Finset.sum_congr rfl fun l _ => ?_
  show weightV _ (ix3 s l c) * wordsV P0 (ix3 s l d) = _
  rw [attnV_apply, wordsV_apply]
  have hL : (fun l c => logitsV (hiddenV (flatV (wordsV P0)) P1 P2) P3 (ix3 s l c))
      = fun l c => logit (fun o i => P1 (ix2 o i)) (fun o => P2 (ix1 o)) (fun c o => P3 (ix2 c o)) (fun i => P0 (ix4 (0 : Fin 1) s l i)) c := by
    funext l c
    rw [logitsV_apply]
    unfold logit
    refine Finset.sum_congr rfl fun o _ => ?_
    rw [hiddenV_apply]
    simp only [flatV_apply, wordsV_apply]
  rw [hL]

end Cert.KernelIdeal.Body
end
-- ==== Proof.ArrayValue.lean ====
/-
  From the body's value at one grid point to the whole result array.

  The grid has 32 x 2 points: point (n, h) takes the words of batch entry n, sentences 50 h .. 50 h + 49, out of the
  input regrouped as [32, 100, 25, 512] (row 25 s + l of the flat word axis is word l of sentence s), together with
  the whole weight matrix, bias and context rows, and writes block (n, h) of the [32, 100, 50, 512] result. So the
  block entry (s, c, d) it writes is the pooled attention of sentence 50 h + s of batch entry n, which is the result
  function's entry (n, 50 h + s, c, d); and the 64 blocks cover the result array, entry (n, s, ·, ·) lying in the
  block of (n, s / 50).
-/
import proofs.«103625_j41472204210408_2_alg».proof.Proof.Gen.KernelIdeal.Value
import proofs.«103625_j41472204210408_2_alg».proof.Proof.BodyValue
import Idealize.ShloMosaic.Lib.Pipeline.Value
import Idealize.ShloMosaic.Lib.StableHlo.Run
import Idealize.ShloMosaic.Lib.Tactic

noncomputable section
namespace Cert.KernelIdeal.ArrayValue
open Cert.KernelIdeal Cert.KernelIdeal.Gen Cert.KernelIdeal.Value Cert.KernelIdeal.Body Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block indices, decided over the 64 grid points: the word window moves with the output window along the batch
    and the sentence-half axes and sits at 0 on the other two; the three parameter windows never move. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_4.index t (2 : Fin 4) = 0 ∧ win0_4.index t (3 : Fin 4) = 0
    ∧ win0_4.index t (0 : Fin 4) ≤ 31 ∧ win0_4.index t (1 : Fin 4) ≤ 1
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- Every (batch entry, sentence half) is some grid point's output block. -/
theorem idx_onto : ∀ (q0 : Fin 32) (q1 : Fin 2), ∃ t : Fin cfg0.N, win0_4.index t = ![q0.val, q1.val, 0, 0] :=
  (by decide +kernel : ∀ (q0 : Fin 32) (q1 : Fin 2), ∃ t : Fin grid0.N, win0_4.index t = ![q0.val, q1.val, 0, 0])

/-- The array the word window is cut from is the flat input regrouped as sentences of 25 words. -/
theorem V_words (c : Dev nD) :
    (V m c main_v0 : S32x100x25x512.Idx → EReal)
      = shapeCast S32x100x25x512 (m ((c : Thread nD τ).loc main_arg0)) shapeCasts_S32x2500x512_S32x100x25x512 := by
  dsimp only [Gen.V, Gen.hostOps0]; after_results; rfl

/-- An entry of the word block at a point is a word of the flat input: batch entry = the block's first index, sentence =
    50 × the block's second index + the sentence inside the block. -/
theorem words_apply (c : Dev nD) (t : Fin cfg0.N) (n : Fin 32) (s' : Fin 100) (s : Fin 50) (l : Fin 25) (i : Fin 512)
    (hn : win0_0.index t (0 : Fin 4) = n.val) (hs : win0_0.index t (1 : Fin 4) * 50 + s.val = s'.val)
    (h2 : win0_0.index t (2 : Fin 4) = 0) (h3 : win0_0.index t (3 : Fin 4) = 0) :
    (iblk m c 0 t : Vec Ideal S1x50x25x512 .f32) (ix4 (0 : Fin 1) s l i) = word (m ((c : Thread nD τ).loc main_arg0)) n s' l i := by
  show V m c main_v0 (((cfg0.win 0).blk t).view.emb (ix4 (0 : Fin 1) s l i)) = _
  have he : ((cfg0.win 0).blk t).view.emb (ix4 (0 : Fin 1) s l i) = ix4 n s' l i := by
    funext a; apply Fin.ext
    match a with
    | ⟨0, _⟩ => show win0_0.index t (0 : Fin 4) * 1 + 1 * 0 = n.val; omega
    | ⟨1, _⟩ => show win0_0.index t (1 : Fin 4) * 50 + 1 * s.val = s'.val; omega
    | ⟨2, _⟩ => show win0_0.index t (2 : Fin 4) * 25 + 1 * l.val = l.val; omega
    | ⟨3, _⟩ => show win0_0.index t (3 : Fin 4) * 512 + 1 * i.val = i.val; omega
  rw [he, V_words]
  unfold word
  exact shapeCast_apply _ shapeCasts_S32x2500x512_S32x100x25x512 (ix4 n s' l i) (ix3 n (row s' l) i) (by
    rw [Shape.rowMajor_val_three, Shape.rowMajor_val_four]
    show (n.val * 2500 + (s'.val * 25 + l.val)) * 512 + i.val = ((n.val * 100 + s'.val) * 25 + l.val) * 512 + i.val
    omega)

/-- The weight block at every point is the whole weight matrix. -/
theorem weights_apply (c : Dev nD) (t : Fin cfg0.N) (o i : Fin 512)
    (h0 : win0_1.index t (0 : Fin 2) = 0) (h1 : win0_1.index t (1 : Fin 2) = 0) :
    (iblk m c 1 t : Vec Ideal S512x512 .f32) (ix2 o i) = m ((c : Thread nD τ).loc main_arg1) (ix2 o i) := by
  show V m c main_arg1 (((cfg0.win 1).blk t).view.emb (ix2 o i)) = _
  rw [V_main_arg1]
  refine congrArg _ (funext fun a => Fin.ext ?_)
  match a with
  | ⟨0, _⟩ => show win0_1.index t (0 : Fin 2) * 512 + 1 * o.val = o.val; omega
  | ⟨1, _⟩ => show win0_1.index t (1 : Fin 2) * 512 + 1 * i.val = i.val; omega

/-- The bias block at every point is the whole bias vector. -/
theorem bias_apply (c : Dev nD) (t : Fin cfg0.N) (o : Fin 512) (h0 : win0_2.index t (0 : Fin 1) = 0) :
    (iblk m c 2 t : Vec Ideal S512 .f32) (ix1 o) = m ((c : Thread nD τ).loc main_arg2) (ix1 o) := by
  show V m c main_arg2 (((cfg0.win 2).blk t).view.emb (ix1 o)) = _
  rw [V_main_arg2]
  refine congrArg _ (funext fun a => Fin.ext ?_)
  match a with
  | ⟨0, _⟩ => show win0_2.index t (0 : Fin 1) * 512 + 1 * o.val = o.val; omega

/-- The context block at every point is the whole context matrix. -/
theorem context_apply (c : Dev nD) (t : Fin cfg0.N) (k : Fin 50) (o : Fin 512)
    (h0 : win0_3.index t (0 : Fin 2) = 0) (h1 : win0_3.index t (1 : Fin 2) = 0) :
    (iblk m c 3 t : Vec Ideal S50x512 .f32) (ix2 k o) = m ((c : Thread nD τ).loc main_arg3) (ix2 k o) := by
  show V m c main_arg3 (((cfg0.win 3).blk t).view.emb (ix2 k o)) = _
  rw [V_main_arg3]
  refine congrArg _ (funext fun a => Fin.ext ?_)
  match a with
  | ⟨0, _⟩ => show win0_3.index t (0 : Fin 2) * 50 + 1 * k.val = k.val; omega
  | ⟨1, _⟩ => show win0_3.index t (1 : Fin 2) * 512 + 1 * o.val = o.val; omega

/-- WHAT POINT `t` WRITES BACK is block `t` of the pooled attention of the argument arrays. -/
theorem flushed_eq (c : Dev nD) (t : Fin cfg0.N) :
    (dats m 0 c).flushed 4 t = ((cfg0.win 4).blk t).view.read (Elt Ideal)
      (resultArr (m ((c : Thread nD τ).loc main_arg0)) (m ((c : Thread nD τ).loc main_arg1))
        (m ((c : Thread nD τ).loc main_arg2)) (m ((c : Thread nD τ).loc main_arg3))) := by
  rw [Value.flushed4]
  obtain ⟨e00, e01, e02, e03, e42, e43, b0, b1, e10, e11, e20, e30, e31⟩ := idx_facts t
  funext y
  obtain ⟨u, s, k, d, rfl⟩ : ∃ (u : Fin 1) (s : Fin 50) (k : Fin 50) (d : Fin 512), y = ix4 u s k d :=
    ⟨y 0, y 1, y 2, y 3, eq_ix4 y⟩
  show out0_4 (iblk m c 0 t) (iblk m c 1 t) (iblk m c 2 t) (iblk m c 3 t) (ix4 u s k d)
    = resultArr _ _ _ _ (((cfg0.win 4).blk t).view.emb (ix4 u s k d))
  -- the array index under the block entry
  have he : ((cfg0.win 4).blk t).view.emb (ix4 u s k d)
      = ix4 (⟨win0_4.index t (0 : Fin 4), by omega⟩ : Fin 32) (⟨win0_4.index t (1 : Fin 4) * 50 + s.val, by have := s.isLt; omega⟩ : Fin 100) k d := by
    have hu : u.val = 0 := by omega
    funext a; apply Fin.ext
    match a with
    | ⟨0, _⟩ => show win0_4.index t (0 : Fin 4) * 1 + 1 * u.val = win0_4.index t (0 : Fin 4); omega
    | ⟨1, _⟩ => show win0_4.index t (1 : Fin 4) * 50 + 1 * s.val = win0_4.index t (1 : Fin 4) * 50 + s.val; omega
    | ⟨2, _⟩ => show win0_4.index t (2 : Fin 4) * 50 + 1 * k.val = k.val; omega
    | ⟨3, _⟩ => show win0_4.index t (3 : Fin 4) * 512 + 1 * d.val = d.val; omega
  rw [he, resultArr_ix4]
  -- the body's value at the block entry
  unfold out0_4
  rw [Value.canon4_eq]
  show k0_pay2 _ _ _ _ (Value.ix4_0 (ix4 u s k d)) = _
  have hi : Value.ix4_0 (ix4 u s k d) = ix3 s k d :=
    funext fun a => Fin.ext (by match a with | ⟨0, _⟩ => rfl | ⟨1, _⟩ => rfl | ⟨2, _⟩ => rfl)
  rw [hi]
  simp only [View.ld_unit_zero (S := S1x50x25x512) hz4, View.ld_unit_zero (S := S512x512) hz2,
    View.ld_unit_zero (S := S512) hz1, View.ld_unit_zero (S := S50x512) hz2]
  refine (payload_apply (iblk m c 0 t) (iblk m c 1 t) (iblk m c 2 t) (iblk m c 3 t) s k d).trans ?_
  unfold result
  have h0 : (fun (l : Fin 25) (i : Fin 512) => (iblk m c 0 t : Vec Ideal S1x50x25x512 .f32) (ix4 (0 : Fin 1) s l i))
      = word (m ((c : Thread nD τ).loc main_arg0)) (⟨win0_4.index t (0 : Fin 4), by omega⟩ : Fin 32)
          (⟨win0_4.index t (1 : Fin 4) * 50 + s.val, by have := s.isLt; omega⟩ : Fin 100) :=
    funext fun l => funext fun i => words_apply m c t _ _ s l i e00 (by show _ = win0_4.index t (1 : Fin 4) * 50 + s.val; omega) e02 e03
  have h1 : (fun (o i : Fin 512) => (iblk m c 1 t : Vec Ideal S512x512 .f32) (ix2 o i))
      = fun o i => m ((c : Thread nD τ).loc main_arg1) (ix2 o i) :=
    funext fun o => funext fun i => weights_apply m c t o i e10 e11
  have h2 : (fun (o : Fin 512) => (iblk m c 2 t : Vec Ideal S512 .f32) (ix1 o))
      = fun o => m ((c : Thread nD τ).loc main_arg2) (ix1 o) :=
    funext fun o => bias_apply m c t o e20
  have h3 : (fun (q : Fin 50) (o : Fin 512) => (iblk m c 3 t : Vec Ideal S50x512 .f32) (ix2 q o))
      = fun q o => m ((c : Thread nD τ).loc main_arg3) (ix2 q o) :=
    funext fun q => funext fun o => context_apply m c t q o e30 e31
  rw [h0, h1, h2, h3]

/-- An index of the result array is in point `t`'s block iff each coordinate is in the block's range on its axis. -/
theorem mem_blk (t : Fin cfg0.N) (i : S32x100x50x512.Idx) :
    i ∈ ((cfg0.win 4).blk t).view.set ↔ ∀ a : Fin 4, win0_4.index t a * S1x50x50x512.size a ≤ (i a).val
      ∧ (i a).val < win0_4.index t a * S1x50x50x512.size a + S1x50x50x512.size a := by
  show i ∈ ((View.whole main_v1).slice (win0_4.rect t)).set ↔ _
  rw [View.set_slice_whole, Rect.mem_set_unit]
  exact Iff.rfl

/-- Every index of the result array is in some point's block: batch entry n, sentence s lie in the block of
    (n, s / 50). -/
theorem covered (i : S32x100x50x512.Idx) :
    ∃ t : Fin cfg0.N, (cfg0.win 4).flush t = true ∧ i ∈ ((cfg0.win 4).blk t).view.set := by
  have hi0 : (i 0).val < 32 := (i 0).isLt
  have hi1 : (i 1).val < 100 := (i 1).isLt
  have hi2 : (i 2).val < 50 := (i 2).isLt
  have hi3 : (i 3).val < 512 := (i 3).isLt
  obtain ⟨t, ht⟩ := idx_onto ⟨(i 0).val, hi0⟩ ⟨(i 1).val / 50, by omega⟩
  have q0 : win0_4.index t (0 : Fin 4) = (i 0).val := congrFun ht 0
  have q1 : win0_4.index t (1 : Fin 4) = (i 1).val / 50 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 50 ≤ (i 1).val ∧ (i 1).val < win0_4.index t (1 : Fin 4) * 50 + 50; omega
  | ⟨2, _⟩ => show win0_4.index t (2 : Fin 4) * 50 ≤ (i 2).val ∧ (i 2).val < win0_4.index t (2 : Fin 4) * 50 + 50; omega
  | ⟨3, _⟩ => show win0_4.index t (3 : Fin 4) * 512 ≤ (i 3).val ∧ (i 3).val < win0_4.index t (3 : Fin 4) * 512 + 512; omega

/-- THE RESULT ARRAY after the run is the pooled attention of the argument arrays. -/
theorem final (c : Dev nD) :
    (dats m 0 c).arrAt 4 cfg0.N = resultArr (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) covered

/-- The kernel's run, read: the result array at the pooled attention of the arguments, the arguments unchanged. -/
theorem run : θ_run defs (onTc (τ := τ) (main (F := Ideal))) ⟨m, fun _ => 0, ρ⟩ fun r => ∀ c : Dev nD,
      r.2.mem ((c : Thread nD τ).loc main_v1) = resultArr (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue
end
-- ==== Proof.lean ====
/-
  The kernel against its reference: a linear layer with tanh over every word, attention logits against 50 context
  rows, a softmax over the classes taken after subtracting the maximum over the words of each sentence, and the
  weights contracted with the raw words sentence by sentence.

  On the extended reals both programs compute the same function of the four arguments, entry by entry
  (`Cert.Attention.result`): the kernel block by block — its body's value is read in Proof/BodyValue.lean and carried to
  the whole array in Proof/ArrayValue.lean — and the reference stage by stage (Proof/ReferenceValue.lean). The two sides
  apply the same operations in the same order to the same entries, so no algebraic law beyond the reading of a matrix
  product and of a reduction as sums and maxima over one axis is used, and the finiteness of the inputs is not needed.
  The three frames are the programs' runs with the results dropped; the idealization rewrote nothing.
-/
import proofs.«103625_j41472204210408_2_alg».proof.Defs
import proofs.«103625_j41472204210408_2_alg».proof.Proof.Gen.Kernel
import proofs.«103625_j41472204210408_2_alg».proof.Proof.Gen.Kernel.Frame
import proofs.«103625_j41472204210408_2_alg».proof.Proof.Gen.KernelIdeal
import proofs.«103625_j41472204210408_2_alg».proof.Proof.Gen.KernelIdeal.Frame
import proofs.«103625_j41472204210408_2_alg».proof.Proof.Gen.KernelIdeal.Value
import proofs.«103625_j41472204210408_2_alg».proof.Proof.Gen.ReferenceIdeal
import proofs.«103625_j41472204210408_2_alg».proof.Proof.Gen.ReferenceIdeal.Run
import proofs.«103625_j41472204210408_2_alg».proof.Proof.Gen.ReferenceIdeal.Read
import proofs.«103625_j41472204210408_2_alg».proof.Proof.Gen.Pre_finite_inputs
import proofs.«103625_j41472204210408_2_alg».proof.Proof.Attention
import proofs.«103625_j41472204210408_2_alg».proof.Proof.ReferenceValue
import proofs.«103625_j41472204210408_2_alg».proof.Proof.ArrayValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the pooled attention of the argument arrays: the kernel by its
    run read block by block, the reference by its run read stage by stage, from arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
